-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩

abbrev nBuf : Space → Nat
  | .hbm => 79
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000x1, .f32⟩
  | .hbm, ⟨41, _⟩ => ⟨S1x128, .f32⟩
  | .hbm, ⟨42, _⟩ => ⟨S50000x128, .f32⟩
  | .hbm, ⟨43, _⟩ => ⟨S_, .f32⟩
  | .hbm, ⟨44, _⟩ => ⟨S600000, .f32⟩
  | .hbm, ⟨45, _⟩ => ⟨S_, .f32⟩
  | .hbm, ⟨46, _⟩ => ⟨S50000, .f32⟩
  | .hbm, ⟨47, _⟩ => ⟨S600000x1, .i32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S600000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S50000x1, .f32⟩
  | .hbm, ⟨77, _⟩ => ⟨S1x128, .f32⟩
  | .hbm, ⟨78, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S600000, .f32⟩
  | .hbm, ⟨53, _⟩ => ⟨S_, .f32⟩
  | .hbm, ⟨54, _⟩ => ⟨S50000, .f32⟩
  | .hbm, ⟨55, _⟩ => ⟨S600000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S600000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x128, .f32⟩
  | .hbm, ⟨81, _⟩ => ⟨S_, .f32⟩
  | .hbm, ⟨82, _⟩ => ⟨S50000x128, .f32⟩
  | .hbm, ⟨83, _⟩ => ⟨S600000x1, .i32⟩
  | .hbm, ⟨84, _⟩ => ⟨S50000x128, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call1_cst : Ref sig .tc := ⟨.hbm, 92, rfl⟩
abbrev main_call1_v0 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  The program is four kernel regions among stretches of host operations.  The buffer contents at each boundary are a fold
  from the launch memory: a stretch of host operations applies its operations, a region replaces its arrays by what its
  write-backs leave.  Every weakly fair execution terminates without a fault, and in the final memory the result buffer holds
  the last boundary's contents at the result buffer, while the argument arrays hold what they held at launch.
-/
import proofs.«147056_j4793183502743_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's eight segments: the last thread state holds every unscoped buffer at the last boundary's
    contents, which a final state is read against; the result is read at its own buffer, each argument walks back through
    the fold to the launch memory. -/
theorem run_main : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Run

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibKeepDims.lean ====
/-
  Reading a row reduction that keeps its reduced axis at an index, at the ideal instance.

  A kernel that sums along the lanes and keeps the reduced axis as a unit axis computes a lane sum `[a, b] → [a]`, casts it to a column
  `[a] → [a, 1]`, and later broadcasts such a column back over the lanes `[a, 1] → [a, b]`; a sum over the rows of a column,
  `[a, 1] → [1]`, is cast to `[1, 1]`. Each lemma reads one of these at an index written with literal coordinates.
-/
import Idealize.ShloMosaic.Lib.ValueIdx
import Idealize.ShloMosaic.Lib.ValueLayout
import Idealize.ShloMosaic.Lib.Pipeline.Value
import Idealize.ShloMosaic.PureOps.Ideal.Laws

noncomputable section

namespace KeepDims

open Idealize.ShloMosaic Idealize.ShloMosaic.ValueIdx

variable {α : Type} {a b : ℕ}

/-- A vector `[a]` cast to a column `[a, 1]` reads, at `(r, u)`, the vector at `r`. -/
theorem shapeCast_a_a1_apply (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, k)`, the column at `r`. -/
theorem broadcastTo_a1_ab_apply (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The lane sum of an `[a, b]` array, at row `r`: the sum over the lanes. -/
theorem laneSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- The sum over the rows of a column `[a, 1]`, at its one index. -/
theorem colSum_apply (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun k _ => congrArg src (funext fun ax => Fin.ext ?_)
  match ax with
  | ⟨0, _⟩ => rfl
  | ⟨1, _⟩ =>
    show u.val = 0
    omega

end KeepDims

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«147056_j4793183502743_1_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.LibGraphLayer.lean ====
/-
  One graph-convolution layer as a whole-array function over the extended reals.

  For a [P, K] array a of aggregated messages, a per-row factor n (the inverse square root of the clamped in-degree),
  a [K, Q] weight W and a bias b of length Q, the layer's output is
      reluDense a n W b (p, q) = max ((∑ k, (a (p, k) · n p) · W (k, q)) + b q) 0,
  and the message a node sends is its feature row scaled by its own factor, scaleRows h n (p, k) = h (p, k) · n p.

  A kernel spells these over a block of rows: the factor arrives as a [P, 1] column that is broadcast over the lanes, the
  product is a matrix product of operands rounded to bf16 accumulated into zero, the bias a [1, Q] block broadcast over the
  rows, the clipping a maximum with a splat zero.  A host program spells them with two broadcasts of a length-P vector,
  a general dot product, two broadcasts of the length-Q bias and a maximum with a broadcast zero constant.  At the ideal
  instance a rounding is the identity and both products are the exact sum, so each spelling IS the function above.

  An entry (p, q) of either function reads row p of its array argument and entry p of the factor only: the two
  congruence lemmas say so, which is what lets a block of rows of the result be computed from a block of rows.
-/
import Idealize.ShloMosaic.Lib.ValueIdx
import Idealize.ShloMosaic.Lib.ValueLayout
import Idealize.ShloMosaic.Lib.Pipeline.Value
import Idealize.ShloMosaic.PureOps.Ideal.Laws
import proofs.«147056_j4793183502743_1_alg».proof.Proof.LibPlainDot
import proofs.«147056_j4793183502743_1_alg».proof.Proof.LibKeepDims
import proofs.«147056_j4793183502743_1_alg».proof.Proof.LibDenseLayer

noncomputable section

namespace GraphLayer

open Idealize.ShloMosaic Idealize.ShloMosaic.ValueIdx

variable {P P' K Q : Nat}

/-- Every row of h multiplied by that row's factor. -/
def scaleRows (h : (⟨2, ![P, K]⟩ : Shape).Idx → EReal) (n : Fin P → EReal) : (⟨2, ![P, K]⟩ : Shape).Idx → EReal :=
  fun i => h i * n (i 0)

theorem scaleRows_ix2 (h : (⟨2, ![P, K]⟩ : Shape).Idx → EReal) (n : Fin P → EReal) (p : Fin P) (k : Fin K) :
    scaleRows h n (ix2 p k) = h (ix2 p k) * n p := rfl

/-- The value of the float word of zero (never evaluated: both programs clip at the same word). -/
def zero : EReal := Ideal.ofBits .f32 0x00000000#32

/-- The layer: the dense layer of the row-scaled aggregate, clipped below at zero. -/
def reluDense (a : (⟨2, ![P, K]⟩ : Shape).Idx → EReal) (n : Fin P → EReal) (W : (⟨2, ![K, Q]⟩ : Shape).Idx → EReal)
    (b : Fin Q → EReal) : (⟨2, ![P, Q]⟩ : Shape).Idx → EReal :=
  fun i => max (DenseLayer.dense (scaleRows a n) W b i) zero

/-- Entry (p, k) of the scaled array reads entry (p, k) of the array and the factor of row p. -/
theorem scaleRows_congr {h : (⟨2, ![P, K]⟩ : Shape).Idx → EReal} {h' : (⟨2, ![P', K]⟩ : Shape).Idx → EReal}
    {n : Fin P → EReal} {n' : Fin P' → EReal} {p : Fin P} {p' : Fin P'} {k : Fin K}
    (hh : h (ix2 p k) = h' (ix2 p' k)) (hn : n p = n' p') : scaleRows h n (ix2 p k) = scaleRows h' n' (ix2 p' k) := by
  rw [scaleRows_ix2, scaleRows_ix2, hh, hn]

/-- Entry (p, q) of the layer reads row p of the aggregate, the factor of row p, column q of the weights and entry q of
    the bias. -/
theorem reluDense_congr {a : (⟨2, ![P, K]⟩ : Shape).Idx → EReal} {a' : (⟨2, ![P', K]⟩ : Shape).Idx → EReal}
    {n : Fin P → EReal} {n' : Fin P' → EReal} {W W' : (⟨2, ![K, Q]⟩ : Shape).Idx → EReal} {b b' : Fin Q → EReal}
    {p : Fin P} {p' : Fin P'} {q : Fin Q}
    (ha : ∀ k, a (ix2 p k) = a' (ix2 p' k)) (hn : n p = n' p') (hW : ∀ k, W (ix2 k q) = W' (ix2 k q)) (hb : b q = b' q) :
    reluDense a n W b (ix2 p q) = reluDense a' n' W' b' (ix2 p' q) :=
  congrArg (fun y => max y zero) (DenseLayer.dense_congr (fun k => scaleRows_congr (ha k) hn) hW hb)

/-! ## A vector as a column, a bias as a row -/

/-- A vector [Q] cast to a row [1, Q] reads, at (u, q), the vector at q. -/
theorem shapeCast_q_1q_apply {α : Type} (x : (⟨1, ![Q]⟩ : Shape).Idx → α) (h : (⟨1, ![Q]⟩ : Shape).ShapeCasts ⟨2, ![1, Q]⟩)
    (u : Fin 1) (q : Fin Q) : shapeCast ⟨2, ![1, Q]⟩ x h (ix2 u q) = x (ix1 q) :=
  shapeCast_apply x h _ _ (by
    have hu : u.val = 0 := by omega
    rw [Shape.rowMajor_val_two, Shape.rowMajor_val_one]
    show q.val = u.val * Q + q.val
    rw [hu, Nat.zero_mul, Nat.zero_add])

/-- Scaling by the factors read off the vector's cast to a column is scaling by the vector. -/
theorem scaleRows_column (a : (⟨2, ![P, K]⟩ : Shape).Idx → EReal) (v : (⟨1, ![P]⟩ : Shape).Idx → EReal)
    (h : (⟨1, ![P]⟩ : Shape).ShapeCasts ⟨2, ![P, 1]⟩) :
    scaleRows a (fun p => shapeCast ⟨2, ![P, 1]⟩ v h (ix2 p (0 : Fin 1))) = scaleRows a (fun p => v (ix1 p)) := by
  rw [show (fun p : Fin P => shapeCast ⟨2, ![P, 1]⟩ v h (ix2 p (0 : Fin 1))) = (fun p => v (ix1 p)) from
    funext fun p => KeepDims.shapeCast_a_a1_apply v h p 0]

/-- The layer with the factors read off a vector's cast to a column and the bias off a vector's cast to a row. -/
theorem reluDense_column_row (a : (⟨2, ![P, K]⟩ : Shape).Idx → EReal) (v : (⟨1, ![P]⟩ : Shape).Idx → EReal)
    (h : (⟨1, ![P]⟩ : Shape).ShapeCasts ⟨2, ![P, 1]⟩) (W : (⟨2, ![K, Q]⟩ : Shape).Idx → EReal)
    (b : (⟨1, ![Q]⟩ : Shape).Idx → EReal) (g : (⟨1, ![Q]⟩ : Shape).ShapeCasts ⟨2, ![1, Q]⟩) :
    reluDense a (fun p => shapeCast ⟨2, ![P, 1]⟩ v h (ix2 p (0 : Fin 1))) W
      (fun q => shapeCast ⟨2, ![1, Q]⟩ b g (ix2 (0 : Fin 1) q))
    = reluDense a (fun p => v (ix1 p)) W (fun q => b (ix1 q)) := by
  rw [show (fun p : Fin P => shapeCast ⟨2, ![P, 1]⟩ v h (ix2 p (0 : Fin 1))) = (fun p => v (ix1 p)) from
      funext fun p => KeepDims.shapeCast_a_a1_apply v h p 0,
    show (fun q : Fin Q => shapeCast ⟨2, ![1, Q]⟩ b g (ix2 (0 : Fin 1) q)) = (fun q => b (ix1 q)) from
      funext fun q => shapeCast_q_1q_apply b g 0 q]

/-! ## The kernel's spelling, over a block of rows -/

/-- The rows scaled by a [P, 1] column broadcast over the lanes. -/
theorem kernel_scale (x : FVec Ideal ⟨2, ![P, K]⟩ .f32) (n : FVec Ideal ⟨2, ![P, 1]⟩ .f32)
    (hn : (⟨2, ![P, 1]⟩ : Shape).ShapeCasts ⟨2, ![P, 1]⟩) (hnb : (⟨2, ![P, 1]⟩ : Shape).Broadcasts ⟨2, ![P, K]⟩) :
    mulf x (broadcastTo ⟨2, ![P, K]⟩ (shapeCast ⟨2, ![P, 1]⟩ n hn) hnb) = scaleRows x (fun p => n (ix2 p (0 : Fin 1))) := by
  funext j
  obtain ⟨p, k, rfl⟩ : ∃ (p : Fin P) (k : Fin K), j = ix2 p k := ⟨j 0, j 1, eq_ix2 j⟩
  rw [shapeCast_self]
  show x (ix2 p k) * broadcastTo ⟨2, ![P, K]⟩ n hnb (ix2 p k) = x (ix2 p k) * n (ix2 p (0 : Fin 1))
  rw [KeepDims.broadcastTo_a1_ab_apply]

/-- The same with the block of rows passed through a cast to its own shape first. -/
theorem kernel_scale_cast (x : FVec Ideal ⟨2, ![P, K]⟩ .f32) (n : FVec Ideal ⟨2, ![P, 1]⟩ .f32)
    (hx : (⟨2, ![P, K]⟩ : Shape).ShapeCasts ⟨2, ![P, K]⟩)
    (hn : (⟨2, ![P, 1]⟩ : Shape).ShapeCasts ⟨2, ![P, 1]⟩) (hnb : (⟨2, ![P, 1]⟩ : Shape).Broadcasts ⟨2, ![P, K]⟩) :
    mulf (shapeCast ⟨2, ![P, K]⟩ x hx) (broadcastTo ⟨2, ![P, K]⟩ (shapeCast ⟨2, ![P, 1]⟩ n hn) hnb)
    = scaleRows x (fun p => n (ix2 p (0 : Fin 1))) := by
  rw [shapeCast_self x hx]
  exact kernel_scale x n hn hnb

/-- The whole layer as the kernel's body computes it from a block of rows. -/
theorem kernel_layer {d : DotDims ⟨2, ![P, K]⟩ ⟨2, ![K, Q]⟩ ⟨2, ![P, Q]⟩} (hd : PlainDot.IsPlain d)
    (x : FVec Ideal ⟨2, ![P, K]⟩ .f32) (n : FVec Ideal ⟨2, ![P, 1]⟩ .f32) (W : FVec Ideal ⟨2, ![K, Q]⟩ .f32)
    (b : FVec Ideal ⟨2, ![1, Q]⟩ .f32)
    (hx : (⟨2, ![P, K]⟩ : Shape).ShapeCasts ⟨2, ![P, K]⟩)
    (hn : (⟨2, ![P, 1]⟩ : Shape).ShapeCasts ⟨2, ![P, 1]⟩) (hnb : (⟨2, ![P, 1]⟩ : Shape).Broadcasts ⟨2, ![P, K]⟩)
    (hr : FTy.bits .bf16 < FTy.bits .f32) (hb : (⟨2, ![1, Q]⟩ : Shape).ShapeCasts ⟨2, ![1, Q]⟩)
    (hbb : (⟨2, ![1, Q]⟩ : Shape).Broadcasts ⟨2, ![P, Q]⟩) :
    maximumf (addf (matmul d none
          (truncf .bf16 (mulf (shapeCast ⟨2, ![P, K]⟩ x hx) (broadcastTo ⟨2, ![P, K]⟩ (shapeCast ⟨2, ![P, 1]⟩ n hn) hnb)) hr)
          (truncf .bf16 W hr) (constant ⟨2, ![P, Q]⟩ .f32 0x00000000#32))
        (broadcastTo ⟨2, ![P, Q]⟩ (shapeCast ⟨2, ![1, Q]⟩ b hb) hbb))
      (broadcast ⟨2, ![P, Q]⟩ (Scalar.ofBits (F := Ideal) .f32 0x00000000#32))
    = reluDense x (fun p => n (ix2 p (0 : Fin 1))) W (fun q => b (ix2 (0 : Fin 1) q)) := by
  rw [DenseLayer.kernel_dense hd _ W b hr hb hbb, shapeCast_self, kernel_scale]
  rfl

/-! ## The host's spelling, over the whole array -/

/-- The rows scaled by a length-P vector broadcast to a column and then over the lanes. -/
theorem host_scale (h : FVec Ideal ⟨2, ![P, K]⟩ .f32) (n : FVec Ideal ⟨1, ![P]⟩ .f32)
    (h1 : (⟨1, ![P]⟩ : Shape).BroadcastsInDim ⟨2, ![P, 1]⟩ ![0])
    (h2 : (⟨2, ![P, 1]⟩ : Shape).BroadcastsInDim ⟨2, ![P, K]⟩ ![0, 1]) :
    mulf h (broadcastInDim ⟨2, ![P, K]⟩ ![0, 1] h2 (broadcastInDim ⟨2, ![P, 1]⟩ ![0] h1 n))
    = scaleRows h (fun p => n (ix1 p)) := by
  funext j
  obtain ⟨p, k, rfl⟩ : ∃ (p : Fin P) (k : Fin K), j = ix2 p k := ⟨j 0, j 1, eq_ix2 j⟩
  show h (ix2 p k) * broadcastInDim ⟨2, ![P, K]⟩ ![0, 1] h2 (broadcastInDim ⟨2, ![P, 1]⟩ ![0] h1 n) (ix2 p k)
      = h (ix2 p k) * n (ix1 p)
  rw [broadcastInDim_apply ![0, 1] h2 _ (ix2 p k) (ix2 p (0 : Fin 1)) (fun a => match a with
    | ⟨0, _⟩ => by show p.val = if P = 1 then 0 else p.val; exact DenseLayer.row_coord p
    | ⟨1, _⟩ => by show 0 = if (1 : Nat) = 1 then 0 else k.val; rw [if_pos rfl]),
    broadcastInDim_apply ![0] h1 n (ix2 p (0 : Fin 1)) (ix1 p) (fun a => match a with
    | ⟨0, _⟩ => by show p.val = if P = 1 then 0 else p.val; exact DenseLayer.row_coord p)]

/-- The whole layer as a host program computes it. -/
theorem host_layer {d : DotDims ⟨2, ![P, K]⟩ ⟨2, ![K, Q]⟩ ⟨2, ![P, Q]⟩} (hd : PlainDot.IsPlain d)
    (a : FVec Ideal ⟨2, ![P, K]⟩ .f32) (n : FVec Ideal ⟨1, ![P]⟩ .f32) (W : FVec Ideal ⟨2, ![K, Q]⟩ .f32)
    (b : FVec Ideal ⟨1, ![Q]⟩ .f32)
    (h1 : (⟨1, ![P]⟩ : Shape).BroadcastsInDim ⟨2, ![P, 1]⟩ ![0])
    (h2 : (⟨2, ![P, 1]⟩ : Shape).BroadcastsInDim ⟨2, ![P, K]⟩ ![0, 1])
    (g1 : (⟨1, ![Q]⟩ : Shape).BroadcastsInDim ⟨2, ![1, Q]⟩ ![1])
    (g2 : (⟨2, ![1, Q]⟩ : Shape).BroadcastsInDim ⟨2, ![P, Q]⟩ ![0, 1])
    (z : (⟨0, ![]⟩ : Shape).BroadcastsInDim ⟨2, ![P, Q]⟩ ![]) :
    maximumf (addf (Host.dotGeneral d none
          (mulf a (broadcastInDim ⟨2, ![P, K]⟩ ![0, 1] h2 (broadcastInDim ⟨2, ![P, 1]⟩ ![0] h1 n))) W)
        (broadcastInDim ⟨2, ![P, Q]⟩ ![0, 1] g2 (broadcastInDim ⟨2, ![1, Q]⟩ ![1] g1 b)))
      (broadcastInDim ⟨2, ![P, Q]⟩ ![] z (constant (F := Ideal) ⟨0, ![]⟩ .f32 0x00000000#32))
    = reluDense a (fun p => n (ix1 p)) W (fun q => b (ix1 q)) := by
  rw [host_scale, DenseLayer.host_dense hd]
  funext j
  show max (DenseLayer.dense _ W _ j) (broadcastInDim ⟨2, ![P, Q]⟩ ![] z (constant (F := Ideal) ⟨0, ![]⟩ .f32 0x00000000#32) j) = _
  rw [broadcastInDim_apply ![] z _ j ix0 (fun a => a.elim0)]
  rfl

end GraphLayer

end
-- ==== Proof.Region0.lean ====
/-
  Region 0 of the program scales every node's feature row by that node's own factor.

  The region's grid has ten points; point t works on rows 5000·t … 5000·t + 4999.  Its body multiplies a block of 5000 rows
  of the feature array by the matching block of the [50000, 1] column of factors, broadcast over the 128 lanes, and writes the
  product back as the same block of rows of the output.  Entry (p, k) of the product reads entry (p, k) of the features and the
  factor of row p only, so what point t writes back is block t of ONE whole-array function of the two input arrays; the ten
  blocks tile the output, so the output array ends holding that function.
-/
import proofs.«147056_j4793183502743_1_alg».proof.Proof.Gen.KernelIdeal.Frame
import proofs.«147056_j4793183502743_1_alg».proof.Proof.LibGraphLayer

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The rows of a scaled by the column n: the region's result as one function of the two arrays it reads. -/
def G (a : S50000x128.Idx → EReal) (n : S50000x1.Idx → EReal) : S50000x128.Idx → EReal :=
  GraphLayer.scaleRows a (fun p => n (ix2 p (0 : Fin 1)))

theorem hz : (![0, 0] : Fin 2 → Nat) = fun _ => 0 := funext fun a => by fin_cases a <;> rfl

/-- The body's stored value is the block of rows scaled by the block of factors. -/
theorem pay_eq (x0 : Vec Ideal S5000x128 .f32) (x1 : Vec Ideal S5000x1 .f32) :
    k0_pay1 x0 x1 = GraphLayer.scaleRows x0 (fun p => x1 (ix2 p (0 : Fin 1))) := by
  unfold k0_pay1
  exact GraphLayer.kernel_scale x0 x1 shapeCasts_S5000x1_S5000x1 broadcasts_S5000x1_S5000x128

/-- An entry of a scaled block equals an entry of the scaled array when the entries and the rows' factors agree. -/
theorem scale_block (x : S5000x128.Idx → EReal) (nb : S5000x1.Idx → EReal) (A : S50000x128.Idx → EReal)
    (N : S50000x1.Idx → EReal) (j : S5000x128.Idx) (i : S50000x128.Idx)
    (hx : x j = A i) (hn : nb (ix2 (j 0) (0 : Fin 1)) = N (ix2 (i 0) (0 : Fin 1))) :
    GraphLayer.scaleRows x (fun p => nb (ix2 p (0 : Fin 1))) j = G A N i := by
  show x j * nb (ix2 (j 0) (0 : Fin 1)) = A i * N (ix2 (i 0) (0 : Fin 1))
  rw [hx, hn]

/-- The block index maps, decided over the grid: both inputs move with the output along the rows, and no window moves along
    the lanes. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point t writes back is block t of G of the two arrays as the region finds them. -/
theorem flushed_eq (c : Dev nD) (t : Fin cfg0.N) :
    (dat0 V c).flushed 2 t = ((cfg0.win 2).blk t).view.read (Elt Ideal) (G (V c main_arg0) (V c main_v13)) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  obtain ⟨e0, e1, e2, e3, e4⟩ := idx_facts t
  refine funext fun (j : S5000x128.Idx) => ?_
  refine (congrFun (pay_eq (iblk0 V c 0 t) (iblk0 V c 1 t)) j).trans ?_
  refine scale_block _ _ _ _ j _ ?_ ?_
  · show V c main_arg0 (((cfg0.win 0).blk t).view.emb j) = V c main_arg0 (((cfg0.win 2).blk t).view.emb j)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  · show V c main_v13 (((cfg0.win 1).blk t).view.emb (ix2 (j 0) (0 : Fin 1)))
        = V c main_v13 (ix2 ((((cfg0.win 2).blk t).view.emb j) 0) (0 : Fin 1))
    refine congrArg (V c main_v13) (funext fun a => Fin.ext ?_)
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v14).slice (win0_2.rect t)).set ↔ _
  rw [View.set_slice_whole, Rect.mem_set_unit]
  exact Iff.rfl

/-- Every index of the output array is in the block of the point that handles its row: row r belongs to point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is G of the two input arrays as the region finds them. -/
theorem out_eq (c : Dev nD) : (dat0 V c).arrAt 2 cfg0.N = G (V c main_arg0) (V c main_v13) :=
  (dat0 V c).arrAt_eq_of_cover 2 (G (V c main_arg0) (V c main_v13)) (fun t _ => flushed_eq V c t) cover

end Cert.KernelIdeal.Region0

end
-- ==== Proof.Region1.lean ====
/-
  Region 1 of the program is one graph-convolution layer's dense stage.

  The region's grid has ten points; point t works on rows 5000·t … 5000·t + 4999.  Its body scales a block of 5000 rows of the
  aggregated messages by the matching block of the [50000, 1] column of factors, multiplies by the whole [128, 128] weight
  (both operands rounded to bf16, the product accumulated into zero), adds the [1, 128] bias block broadcast over the rows,
  clips at zero, and writes the result back as the same block of rows of the output.  Entry (p, q) of that reads row p of the
  aggregate and the factor of row p only, so what point t writes back is block t of ONE whole-array function of the four
  arrays the region reads; the ten blocks tile the output, so the output array ends holding that function.
-/
import proofs.«147056_j4793183502743_1_alg».proof.Proof.Gen.KernelIdeal.Frame
import proofs.«147056_j4793183502743_1_alg».proof.Proof.LibGraphLayer

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The layer of the aggregate a, the column of factors n, the weight W and the bias row b: the region's result as one
    function of the four arrays it reads. -/
def G (a : S50000x128.Idx → EReal) (n : S50000x1.Idx → EReal) (W : S128x128.Idx → EReal) (b : S1x128.Idx → EReal) :
    S50000x128.Idx → EReal :=
  GraphLayer.reluDense a (fun p => n (ix2 p (0 : Fin 1))) W (fun q => b (ix2 (0 : Fin 1) q))

theorem hz : (![0, 0] : Fin 2 → Nat) = fun _ => 0 := funext fun a => by fin_cases a <;> rfl

/-- The kernel's matrix product contracts the left operand's lanes against the right operand's rows. -/
theorem plain : PlainDot.IsPlain dot_S5000x128_S128x128_S5000x128_1_0_0_1_n_n := ⟨rfl, rfl, rfl, rfl, rfl, rfl⟩

/-- The body's stored value is the layer of the block of rows. -/
theorem pay_eq (x0 : Vec Ideal S5000x128 .f32) (x1 : Vec Ideal S5000x1 .f32) (x2 : Vec Ideal S128x128 .f32)
    (x3 : Vec Ideal S1x128 .f32) :
    k1_pay1 x0 x1 x2 x3
      = GraphLayer.reluDense x0 (fun p => x1 (ix2 p (0 : Fin 1))) x2 (fun q => x3 (ix2 (0 : Fin 1) q)) := by
  unfold k1_pay1
  exact GraphLayer.kernel_layer plain x0 x1 x2 x3 shapeCasts_S5000x128_S5000x128 shapeCasts_S5000x1_S5000x1
    broadcasts_S5000x1_S5000x128 bitsLt_bf16_f32 shapeCasts_S1x128_S1x128 broadcasts_S1x128_S5000x128

/-- An entry of the layer of a block equals an entry of the layer of the array when the rows, the rows' factors, the weights
    and the biases agree. -/
theorem layer_block (x : S5000x128.Idx → EReal) (nb : S5000x1.Idx → EReal) (w : S128x128.Idx → EReal) (bb : S1x128.Idx → EReal)
    (A : S50000x128.Idx → EReal) (N : S50000x1.Idx → EReal) (W : S128x128.Idx → EReal) (B : S1x128.Idx → EReal)
    (j : S5000x128.Idx) (i : S50000x128.Idx) (hq : j 1 = i 1)
    (hx : ∀ k : Fin 128, x (ix2 (j 0) k) = A (ix2 (i 0) k))
    (hn : nb (ix2 (j 0) (0 : Fin 1)) = N (ix2 (i 0) (0 : Fin 1))) (hw : w = W) (hb : bb = B) :
    GraphLayer.reluDense x (fun p => nb (ix2 p (0 : Fin 1))) w (fun q => bb (ix2 (0 : Fin 1) q)) j = G A N W B i := by
  subst hw hb
  rw [eq_ix2 j, eq_ix2 i]
  show GraphLayer.reluDense x (fun p => nb (ix2 p (0 : Fin 1))) w (fun q => bb (ix2 (0 : Fin 1) q)) (ix2 (j 0) (j 1))
    = GraphLayer.reluDense A (fun p => N (ix2 p (0 : Fin 1))) w (fun q => bb (ix2 (0 : Fin 1) q)) (ix2 (i 0) (i 1))
  rw [← hq]
  exact GraphLayer.reluDense_congr hx hn (fun _ => rfl) rfl

/-- The block index maps, decided over the grid: the aggregate and the factors move with the output along the rows; the
    weight and the bias are the same block at every point; no window moves along the lanes. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0 :=
  (by decide +kernel : ∀ t : Fin grid1.N, _)

/-- Every one of the ten row blocks is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

variable (V : (c : Dev nD) → (b : Ref sig .tc) → Buf (Elt Ideal) ((c : Thread nD τ).loc b))

/-- What point t writes back is block t of G of the four arrays as the region finds them. -/
theorem flushed_eq (c : Dev nD) (t : Fin cfg1.N) :
    (dat1 V c).flushed 4 t
      = ((cfg1.win 4).blk t).view.read (Elt Ideal) (G (V c main_v24) (V c main_v25) (V c main_arg3) (V c main_v26)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  obtain ⟨e0, e1, e2, e3, e4, e5, e6, e7, e8⟩ := idx_facts t
  refine funext fun (j : S5000x128.Idx) => ?_
  refine (congrFun (pay_eq (iblk1 V c 0 t) (iblk1 V c 1 t) (iblk1 V c 2 t) (iblk1 V c 3 t)) j).trans ?_
  refine layer_block _ _ _ _ _ _ _ _ j _ ?_ ?_ ?_ ?_ ?_
  · refine Fin.ext ?_
    show (j 1).val = win1_4.index t (1 : Fin 2) * 128 + 1 * (j 1).val
    omega
  · intro k
    show V c main_v24 (((cfg1.win 0).blk t).view.emb (ix2 (j 0) k))
        = V c main_v24 (ix2 ((((cfg1.win 4).blk t).view.emb j) 0) k)
    refine congrArg (V c main_v24) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v25 (((cfg1.win 1).blk t).view.emb (ix2 (j 0) (0 : Fin 1)))
        = V c main_v25 (ix2 ((((cfg1.win 4).blk t).view.emb j) 0) (0 : Fin 1))
    refine congrArg (V c main_v25) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  · refine funext fun (y : S128x128.Idx) => ?_
    show V c main_arg3 (((cfg1.win 2).blk t).view.emb y) = V c main_arg3 y
    refine congrArg (V c main_arg3) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · refine funext fun (y : S1x128.Idx) => ?_
    show V c main_v26 (((cfg1.win 3).blk t).view.emb y) = V c main_v26 y
    refine congrArg (V c main_v26) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega

/-- An index of the output array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- Every index of the output array is in the block of the point that handles its row: row r belongs to point r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region is G of the four input arrays as the region finds them. -/
theorem out_eq (c : Dev nD) :
    (dat1 V c).arrAt 4 cfg1.N = G (V c main_v24) (V c main_v25) (V c main_arg3) (V c main_v26) :=
  (dat1 V c).arrAt_eq_of_cover 4 (G (V c main_v24) (V c main_v25) (V c main_arg3) (V c main_v26)) (fun t _ => flushed_eq V c t) cover

end Cert.KernelIdeal.Region1

end
-- ==== Proof.Region2.lean ====
/-
  Region 2 of the program scales every node's feature row by that node's own factor.

  The region's grid has ten points; point t works on rows 5000·t … 5000·t + 4999.  Its body multiplies a block of 5000 rows
  of the feature array by the matching block of the [50000, 1] column of factors, broadcast over the 128 lanes, and writes the
  product back as the same block of rows of the output.  Entry (p, k) of the product reads entry (p, k) of the features and the
  factor of row p only, so what point t writes back is block t of ONE whole-array function of the two input arrays; the ten
  blocks tile the output, so the output array ends holding that function.
-/
import proofs.«147056_j4793183502743_1_alg».proof.Proof.Gen.KernelIdeal.Frame
import proofs.«147056_j4793183502743_1_alg».proof.Proof.LibGraphLayer

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

/-- The rows of a scaled by the column n: the region's result as one function of the two arrays it reads. -/
def G (a : S50000x128.Idx → EReal) (n : S50000x1.Idx → EReal) : S50000x128.Idx → EReal :=
  GraphLayer.scaleRows a (fun p => n (ix2 p (0 : Fin 1)))

theorem hz : (![0, 0] : Fin 2 → Nat) = fun _ => 0 := funext fun a => by fin_cases a <;> rfl

/-- The body's stored value is the block of rows scaled by the block of factors. -/
theorem pay_eq (x0 : Vec Ideal S5000x128 .f32) (x1 : Vec Ideal S5000x1 .f32) :
    k2_pay1 x0 x1 = GraphLayer.scaleRows x0 (fun p => x1 (ix2 p (0 : Fin 1))) := by
  unfold k2_pay1
  exact GraphLayer.kernel_scale_cast x0 x1 shapeCasts_S5000x128_S5000x128 shapeCasts_S5000x1_S5000x1 broadcasts_S5000x1_S5000x128

/-- An entry of a scaled block equals an entry of the scaled array when the entries and the rows' factors agree. -/
theorem scale_block (x : S5000x128.Idx → EReal) (nb : S5000x1.Idx → EReal) (A : S50000x128.Idx → EReal)
    (N : S50000x1.Idx → EReal) (j : S5000x128.Idx) (i : S50000x128.Idx)
    (hx : x j = A i) (hn : nb (ix2 (j 0) (0 : Fin 1)) = N (ix2 (i 0) (0 : Fin 1))) :
    GraphLayer.scaleRows x (fun p => nb (ix2 p (0 : Fin 1))) j = G A N i := by
  show x j * nb (ix2 (j 0) (0 : Fin 1)) = A i * N (ix2 (i 0) (0 : Fin 1))
  rw [hx, hn]

/-- The block index maps, decided over the grid: both inputs move with the output along the rows, and no window moves along
    the lanes. -/
theorem idx_facts : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (1 : Fin 2) = 0 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What point t writes back is block t of G of the two arrays as the region finds them. -/
theorem flushed_eq (c : Dev nD) (t : Fin cfg2.N) :
    (dat2 V c).flushed 2 t = ((cfg2.win 2).blk t).view.read (Elt Ideal) (G (V c main_v27) (V c main_v41)) := by
  show (cfg2.win 2).cut (grid2.coords t) ((dat2 V c).after 2 t) = _
  rw [after2_2]
  unfold out2_2
  rw [View.canon_unit_zero hz]
  simp only [View.ld_unit_zero (S := S5000x128) hz, View.ld_unit_zero (S := S5000x1) hz]
  obtain ⟨e0, e1, e2, e3, e4⟩ := idx_facts t
  refine funext fun (j : S5000x128.Idx) => ?_
  refine (congrFun (pay_eq (iblk2 V c 0 t) (iblk2 V c 1 t)) j).trans ?_
  refine scale_block _ _ _ _ j _ ?_ ?_
  · show V c main_v27 (((cfg2.win 0).blk t).view.emb j) = V c main_v27 (((cfg2.win 2).blk t).view.emb j)
    refine congrArg (V c main_v27) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  · show V c main_v41 (((cfg2.win 1).blk t).view.emb (ix2 (j 0) (0 : Fin 1)))
        = V c main_v41 (ix2 ((((cfg2.win 2).blk t).view.emb j) 0) (0 : Fin 1))
    refine congrArg (V c main_v41) (funext fun a => Fin.ext ?_)
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 1 + 1 * 0 = 0; omega

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v42).slice (win2_2.rect t)).set ↔ _
  rw [View.set_slice_whole, Rect.mem_set_unit]
  exact Iff.rfl

/-- Every index of the output array is in the block of the point that handles its row: row r belongs to point r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region is G of the two input arrays as the region finds them. -/
theorem out_eq (c : Dev nD) : (dat2 V c).arrAt 2 cfg2.N = G (V c main_v27) (V c main_v41) :=
  (dat2 V c).arrAt_eq_of_cover 2 (G (V c main_v27) (V c main_v41)) (fun t _ => flushed_eq V c t) cover

end Cert.KernelIdeal.Region2

end
-- ==== Proof.Region3.lean ====
/-
  Region 3 of the program is one graph-convolution layer's dense stage.

  The region's grid has ten points; point t works on rows 5000·t … 5000·t + 4999.  Its body scales a block of 5000 rows of the
  aggregated messages by the matching block of the [50000, 1] column of factors, multiplies by the whole [128, 128] weight
  (both operands rounded to bf16, the product accumulated into zero), adds the [1, 128] bias block broadcast over the rows,
  clips at zero, and writes the result back as the same block of rows of the output.  Entry (p, q) of that reads row p of the
  aggregate and the factor of row p only, so what point t writes back is block t of ONE whole-array function of the four
  arrays the region reads; the ten blocks tile the output, so the output array ends holding that function.
-/
import proofs.«147056_j4793183502743_1_alg».proof.Proof.Gen.KernelIdeal.Frame
import proofs.«147056_j4793183502743_1_alg».proof.Proof.LibGraphLayer

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

/-- The layer of the aggregate a, the column of factors n, the weight W and the bias row b: the region's result as one
    function of the four arrays it reads. -/
def G (a : S50000x128.Idx → EReal) (n : S50000x1.Idx → EReal) (W : S128x128.Idx → EReal) (b : S1x128.Idx → EReal) :
    S50000x128.Idx → EReal :=
  GraphLayer.reluDense a (fun p => n (ix2 p (0 : Fin 1))) W (fun q => b (ix2 (0 : Fin 1) q))

theorem hz : (![0, 0] : Fin 2 → Nat) = fun _ => 0 := funext fun a => by fin_cases a <;> rfl

/-- The kernel's matrix product contracts the left operand's lanes against the right operand's rows. -/
theorem plain : PlainDot.IsPlain dot_S5000x128_S128x128_S5000x128_1_0_0_1_n_n := ⟨rfl, rfl, rfl, rfl, rfl, rfl⟩

/-- The body's stored value is the layer of the block of rows. -/
theorem pay_eq (x0 : Vec Ideal S5000x128 .f32) (x1 : Vec Ideal S5000x1 .f32) (x2 : Vec Ideal S128x128 .f32)
    (x3 : Vec Ideal S1x128 .f32) :
    k3_pay1 x0 x1 x2 x3
      = GraphLayer.reluDense x0 (fun p => x1 (ix2 p (0 : Fin 1))) x2 (fun q => x3 (ix2 (0 : Fin 1) q)) := by
  unfold k3_pay1
  exact GraphLayer.kernel_layer plain x0 x1 x2 x3 shapeCasts_S5000x128_S5000x128 shapeCasts_S5000x1_S5000x1
    broadcasts_S5000x1_S5000x128 bitsLt_bf16_f32 shapeCasts_S1x128_S1x128 broadcasts_S1x128_S5000x128

/-- An entry of the layer of a block equals an entry of the layer of the array when the rows, the rows' factors, the weights
    and the biases agree. -/
theorem layer_block (x : S5000x128.Idx → EReal) (nb : S5000x1.Idx → EReal) (w : S128x128.Idx → EReal) (bb : S1x128.Idx → EReal)
    (A : S50000x128.Idx → EReal) (N : S50000x1.Idx → EReal) (W : S128x128.Idx → EReal) (B : S1x128.Idx → EReal)
    (j : S5000x128.Idx) (i : S50000x128.Idx) (hq : j 1 = i 1)
    (hx : ∀ k : Fin 128, x (ix2 (j 0) k) = A (ix2 (i 0) k))
    (hn : nb (ix2 (j 0) (0 : Fin 1)) = N (ix2 (i 0) (0 : Fin 1))) (hw : w = W) (hb : bb = B) :
    GraphLayer.reluDense x (fun p => nb (ix2 p (0 : Fin 1))) w (fun q => bb (ix2 (0 : Fin 1) q)) j = G A N W B i := by
  subst hw hb
  rw [eq_ix2 j, eq_ix2 i]
  show GraphLayer.reluDense x (fun p => nb (ix2 p (0 : Fin 1))) w (fun q => bb (ix2 (0 : Fin 1) q)) (ix2 (j 0) (j 1))
    = GraphLayer.reluDense A (fun p => N (ix2 p (0 : Fin 1))) w (fun q => bb (ix2 (0 : Fin 1) q)) (ix2 (i 0) (i 1))
  rw [← hq]
  exact GraphLayer.reluDense_congr hx hn (fun _ => rfl) rfl

/-- The block index maps, decided over the grid: the aggregate and the factors move with the output along the rows; the
    weight and the bias are the same block at every point; no window moves along the lanes. -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (1 : Fin 2) = 0 :=
  (by decide +kernel : ∀ t : Fin grid3.N, _)

/-- Every one of the ten row blocks is some point's. -/
theorem idx_onto : ∀ q0 : Fin 10, ∃ t : Fin cfg3.N, win3_4.index t = ![q0.val, 0] :=
  (by decide +kernel : ∀ q0 : Fin 10, ∃ t : Fin grid3.N, win3_4.index t = ![q0.val, 0])

variable (V : (c : Dev nD) → (b : Ref sig .tc) → Buf (Elt Ideal) ((c : Thread nD τ).loc b))

/-- What point t writes back is block t of G of the four arrays as the region finds them. -/
theorem flushed_eq (c : Dev nD) (t : Fin cfg3.N) :
    (dat3 V c).flushed 4 t
      = ((cfg3.win 4).blk t).view.read (Elt Ideal) (G (V c main_v52) (V c main_v53) (V c main_arg5) (V c main_v54)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz,
    View.ld_unit_zero (S := S128x128) hz, View.ld_unit_zero (S := S1x128) hz]
  obtain ⟨e0, e1, e2, e3, e4, e5, e6, e7, e8⟩ := idx_facts t
  refine funext fun (j : S5000x128.Idx) => ?_
  refine (congrFun (pay_eq (iblk3 V c 0 t) (iblk3 V c 1 t) (iblk3 V c 2 t) (iblk3 V c 3 t)) j).trans ?_
  refine layer_block _ _ _ _ _ _ _ _ j _ ?_ ?_ ?_ ?_ ?_
  · refine Fin.ext ?_
    show (j 1).val = win3_4.index t (1 : Fin 2) * 128 + 1 * (j 1).val
    omega
  · intro k
    show V c main_v52 (((cfg3.win 0).blk t).view.emb (ix2 (j 0) k))
        = V c main_v52 (ix2 ((((cfg3.win 4).blk t).view.emb j) 0) k)
    refine congrArg (V c main_v52) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * k.val = k.val; omega
  · show V c main_v53 (((cfg3.win 1).blk t).view.emb (ix2 (j 0) (0 : Fin 1)))
        = V c main_v53 (ix2 ((((cfg3.win 4).blk t).view.emb j) 0) (0 : Fin 1))
    refine congrArg (V c main_v53) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 1 + 1 * 0 = 0; omega
  · refine funext fun (y : S128x128.Idx) => ?_
    show V c main_arg5 (((cfg3.win 2).blk t).view.emb y) = V c main_arg5 y
    refine congrArg (V c main_arg5) (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  · refine funext fun (y : S1x128.Idx) => ?_
    show V c main_v54 (((cfg3.win 3).blk t).view.emb y) = V c main_v54 y
    refine congrArg (V c main_v54) (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega

/-- An index of the output array is in point t's block iff each coordinate is in the block's range on its axis. -/
theorem mem_blk (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v55).slice (win3_4.rect t)).set ↔ _
  rw [View.set_slice_whole, Rect.mem_set_unit]
  exact Iff.rfl

/-- Every index of the output array is in the block of the point that handles its row: row r belongs to point r / 5000. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the region is G of the four input arrays as the region finds them. -/
theorem out_eq (c : Dev nD) :
    (dat3 V c).arrAt 4 cfg3.N = G (V c main_v52) (V c main_v53) (V c main_arg5) (V c main_v54) :=
  (dat3 V c).arrAt_eq_of_cover 4 (G (V c main_v52) (V c main_v53) (V c main_arg5) (V c main_v54)) (fun t _ => flushed_eq V c t) cover

end Cert.KernelIdeal.Region3

end
-- ==== Proof.Stages.lean ====
/-
  The buffer contents of the idealized kernel program at each boundary between its segments, as functions of the launch
  memory, and with them the result.

  Between the four kernel regions the host computes, from the two index arrays alone, the inverse square roots of the
  clamped out- and in-degrees (the same vectors before each layer), gathers the scaled features along the source indices and
  sums them per destination index, and reshapes the factors to columns and the biases to rows for the kernels.  No host
  operation and no region writes an argument array, so every argument is read at every boundary as launched.  Walking
  the boundaries in order — each region's output by the region's whole-array function, each host value by its operations —
  the result buffer ends at two graph-convolution layers of the features.
-/
import proofs.«147056_j4793183502743_1_alg».proof.Proof.Gen.KernelIdeal.Frame
import proofs.«147056_j4793183502743_1_alg».proof.Proof.LibGraphLayer
import proofs.«147056_j4793183502743_1_alg».proof.Proof.Region0
import proofs.«147056_j4793183502743_1_alg».proof.Proof.Region1
import proofs.«147056_j4793183502743_1_alg».proof.Proof.Region2
import proofs.«147056_j4793183502743_1_alg».proof.Proof.Region3
import Idealize.ShloMosaic.PureOps.Ideal

set_option maxRecDepth 16384

noncomputable section

namespace Cert.KernelIdeal.Graph

open Cert.KernelIdeal Cert.KernelIdeal.Gen
open Idealize.ShloMosaic Idealize.ShloMosaic.TcCoe Idealize.ShloMosaic.ValueIdx Idealize.SL.Sem Idealize.ShloMosaic.StableHlo

/-! ## The host's shared functions and the two layers -/

/-- The inverse square root of each node's clamped degree: the number of edges whose index entry names the node, at least one. -/
def invSqrtDeg (idx : (⟨S600000, .i32⟩ : BufTy).Contents (Elt Ideal)) : FVec Ideal S50000 .f32 :=
  Host.rsqrt (F := Ideal) (maximumf
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 idx)
      (broadcastInDim S600000 ![] bcast_S_S600000 (constant (F := Ideal) S_ .f32 0x3F800000#32)))
    (broadcastInDim S50000 ![] bcast_S_S50000 (constant (F := Ideal) S_ .f32 0x3F800000#32)))

/-- The messages: rows of hs gathered along the (normalised) source indices and summed per destination index. -/
def aggregate (hs : FVec Ideal S50000x128 .f32) (src dst : (⟨S600000, .i32⟩ : BufTy).Contents (Elt Ideal)) :
    FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 hs
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A vector of factors as a function of the row. -/
def perRow (v : FVec Ideal S50000 .f32) : Fin 50000 → EReal := fun p => v (ix1 p)

/-- A bias vector as a function of the lane. -/
def perLane (b : FVec Ideal S128 .f32) : Fin 128 → EReal := fun q => b (ix1 q)

/-- One layer: scale by the out-degree factor, aggregate over the edges, scale by the in-degree factor, multiply by the weight,
    add the bias, clip at zero. -/
def layer (h : FVec Ideal S50000x128 .f32) (src dst : (⟨S600000, .i32⟩ : BufTy).Contents (Elt Ideal))
    (W : FVec Ideal S128x128 .f32) (b : FVec Ideal S128 .f32) : FVec Ideal S50000x128 .f32 :=
  GraphLayer.reluDense (aggregate (GraphLayer.scaleRows h (perRow (invSqrtDeg src))) src dst) (perRow (invSqrtDeg dst)) W (perLane b)

/-- The two layers. -/
def twoLayers (x : FVec Ideal S50000x128 .f32) (src dst : (⟨S600000, .i32⟩ : BufTy).Contents (Elt Ideal))
    (W1 : FVec Ideal S128x128 .f32) (b1 : FVec Ideal S128 .f32) (W2 : FVec Ideal S128x128 .f32) (b2 : FVec Ideal S128 .f32) :
    FVec Ideal S50000x128 .f32 :=
  layer (layer x src dst W1 b1) src dst W2 b2

/-- A vector of factors reshaped to a column, as the kernels take it. -/
def column (v : FVec Ideal S50000 .f32) : FVec Ideal S50000x1 .f32 := shapeCast S50000x1 v shapeCasts_S50000_S50000x1

/-- A bias reshaped to a row, as the kernels take it. -/
def biasRow (b : FVec Ideal S128 .f32) : FVec Ideal S1x128 .f32 := shapeCast S1x128 b shapeCasts_S128_S1x128

/-- The scaling region's function at a column of factors. -/
theorem scale0_column (a : FVec Ideal S50000x128 .f32) (v : FVec Ideal S50000 .f32) :
    Region0.G a (column v) = GraphLayer.scaleRows a (perRow v) :=
  GraphLayer.scaleRows_column a v shapeCasts_S50000_S50000x1
theorem scale2_column (a : FVec Ideal S50000x128 .f32) (v : FVec Ideal S50000 .f32) :
    Region2.G a (column v) = GraphLayer.scaleRows a (perRow v) :=
  GraphLayer.scaleRows_column a v shapeCasts_S50000_S50000x1

/-- The dense region's function at a column of factors and a bias row. -/
theorem dense1_column_row (a : FVec Ideal S50000x128 .f32) (v : FVec Ideal S50000 .f32) (W : FVec Ideal S128x128 .f32)
    (b : FVec Ideal S128 .f32) : Region1.G a (column v) W (biasRow b) = GraphLayer.reluDense a (perRow v) W (perLane b) :=
  GraphLayer.reluDense_column_row a v shapeCasts_S50000_S50000x1 W b shapeCasts_S128_S1x128
theorem dense3_column_row (a : FVec Ideal S50000x128 .f32) (v : FVec Ideal S50000 .f32) (W : FVec Ideal S128x128 .f32)
    (b : FVec Ideal S128 .f32) : Region3.G a (column v) W (biasRow b) = GraphLayer.reluDense a (perRow v) W (perLane b) :=
  GraphLayer.reluDense_column_row a v shapeCasts_S50000_S50000x1 W b shapeCasts_S128_S1x128

variable (m : (ℓ : Loc nD τ sig) → Buf (Elt Ideal) ℓ) (ρ : Dev nD → PrngReg) (c : Dev nD)

/-! ## At region 0's entry: after the first stretch of host operations -/

theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg1 : W1 m ρ c (Proc.devRef .tc main_arg1) = m ((c : Thread nD τ).loc main_arg1) := by
  show StableHlo.after hostOps0 (W0 m ρ c) (Proc.devRef .tc main_arg1) = _
  after_results <;> rfl
theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg3 : W1 m ρ c (Proc.devRef .tc main_arg3) = m ((c : Thread nD τ).loc main_arg3) := by
  show StableHlo.after hostOps0 (W0 m ρ c) (Proc.devRef .tc main_arg3) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg5 : W1 m ρ c (Proc.devRef .tc main_arg5) = m ((c : Thread nD τ).loc main_arg5) := by
  show StableHlo.after hostOps0 (W0 m ρ c) (Proc.devRef .tc main_arg5) = _
  after_results <;> rfl
theorem W1_arg6 : W1 m ρ c (Proc.devRef .tc main_arg6) = m ((c : Thread nD τ).loc main_arg6) := by
  show StableHlo.after hostOps0 (W0 m ρ c) (Proc.devRef .tc main_arg6) = _
  after_results <;> rfl
/-- The in-degree factors, computed here and used after region 0. -/
theorem W1_v12 : W1 m ρ c (Proc.devRef .tc main_v12) = invSqrtDeg (m ((c : Thread nD τ).loc main_arg2)) := by
  show StableHlo.after hostOps0 (W0 m ρ c) (Proc.devRef .tc main_v12) = _
  after_results <;> rfl
/-- The out-degree factors as a column: region 0's second operand. -/
theorem W1_v13 : W1 m ρ c (Proc.devRef .tc main_v13) = column (invSqrtDeg (m ((c : Thread nD τ).loc main_arg1))) := by
  show StableHlo.after hostOps0 (W0 m ρ c) (Proc.devRef .tc main_v13) = _
  after_results <;> rfl

/-! ## At region 0's exit -/

/-- Region 0's output: the features scaled by the out-degree factors. -/
theorem W2_v14 : W2 m ρ c (Proc.devRef .tc main_v14)
    = GraphLayer.scaleRows (m ((c : Thread nD τ).loc main_arg0)) (perRow (invSqrtDeg (m ((c : Thread nD τ).loc main_arg1)))) := by
  refine (W2_arr m ρ c 2).trans ((Region0.out_eq (V1 m ρ) c).trans ?_)
  show Region0.G (W1 m ρ c (Proc.devRef .tc main_arg0)) (W1 m ρ c (Proc.devRef .tc main_v13)) = _
  rw [W1_arg0, W1_v13]
  exact scale0_column _ _
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_v12 : W2 m ρ c (Proc.devRef .tc main_v12) = invSqrtDeg (m ((c : Thread nD τ).loc main_arg2)) :=
  (W2_of_ne m ρ c main_v12 (by decide)).trans (W1_v12 m ρ c)

/-! ## At region 1's entry: after the second stretch of host operations -/

theorem W3_arg1 : W3 m ρ c (Proc.devRef .tc main_arg1) = m ((c : Thread nD τ).loc main_arg1) := by
  show StableHlo.after hostOps1 (W2 m ρ c) (Proc.devRef .tc main_arg1) = _
  after_results
  exact W2_arg1 m ρ c
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg3 : W3 m ρ c (Proc.devRef .tc main_arg3) = m ((c : Thread nD τ).loc main_arg3) := by
  show StableHlo.after hostOps1 (W2 m ρ c) (Proc.devRef .tc main_arg3) = _
  after_results
  exact W2_arg3 m ρ c
theorem W3_arg5 : W3 m ρ c (Proc.devRef .tc main_arg5) = m ((c : Thread nD τ).loc main_arg5) := by
  show StableHlo.after hostOps1 (W2 m ρ c) (Proc.devRef .tc main_arg5) = _
  after_results
  exact W2_arg5 m ρ c
theorem W3_arg6 : W3 m ρ c (Proc.devRef .tc main_arg6) = m ((c : Thread nD τ).loc main_arg6) := by
  show StableHlo.after hostOps1 (W2 m ρ c) (Proc.devRef .tc main_arg6) = _
  after_results
  exact W2_arg6 m ρ c
set_option maxHeartbeats 2000000 in
/-- The first layer's aggregated messages: region 1's first operand. -/
theorem W3_v24 : W3 m ρ c (Proc.devRef .tc main_v24)
    = aggregate (GraphLayer.scaleRows (m ((c : Thread nD τ).loc main_arg0)) (perRow (invSqrtDeg (m ((c : Thread nD τ).loc main_arg1))))) (m ((c : Thread nD τ).loc main_arg1)) (m ((c : Thread nD τ).loc main_arg2)) := by
  show StableHlo.after hostOps1 (W2 m ρ c) (Proc.devRef .tc main_v24) = _
  after_results
  rw [W2_v14, W2_arg1, W2_arg2]
  rfl
/-- The in-degree factors as a column: region 1's second operand. -/
theorem W3_v25 : W3 m ρ c (Proc.devRef .tc main_v25) = column (invSqrtDeg (m ((c : Thread nD τ).loc main_arg2))) := by
  show StableHlo.after hostOps1 (W2 m ρ c) (Proc.devRef .tc main_v25) = _
  after_results
  rw [W2_v12]
  rfl
/-- The first bias as a row: region 1's fourth operand. -/
theorem W3_v26 : W3 m ρ c (Proc.devRef .tc main_v26) = biasRow (m ((c : Thread nD τ).loc main_arg4)) := by
  show StableHlo.after hostOps1 (W2 m ρ c) (Proc.devRef .tc main_v26) = _
  after_results
  rw [W2_arg4]
  rfl

/-! ## At region 1's exit -/

/-- Region 1's output: the first layer. -/
theorem W4_v27 : W4 m ρ c (Proc.devRef .tc main_v27)
    = layer (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 4).trans ((Region1.out_eq (V3 m ρ) c).trans ?_)
  show Region1.G (W3 m ρ c (Proc.devRef .tc main_v24)) (W3 m ρ c (Proc.devRef .tc main_v25))
    (W3 m ρ c (Proc.devRef .tc main_arg3)) (W3 m ρ c (Proc.devRef .tc main_v26)) = _
  rw [W3_v24, W3_v25, W3_arg3, W3_v26]
  exact dense1_column_row _ _ _ _
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)

/-! ## At region 2's entry: after the third stretch of host operations -/

theorem W5_arg1 : W5 m ρ c (Proc.devRef .tc main_arg1) = m ((c : Thread nD τ).loc main_arg1) := by
  show StableHlo.after hostOps2 (W4 m ρ c) (Proc.devRef .tc main_arg1) = _
  after_results
  exact W4_arg1 m ρ c
theorem W5_arg2 : W5 m ρ c (Proc.devRef .tc main_arg2) = m ((c : Thread nD τ).loc main_arg2) := by
  show StableHlo.after hostOps2 (W4 m ρ c) (Proc.devRef .tc main_arg2) = _
  after_results
  exact W4_arg2 m ρ c
theorem W5_arg5 : W5 m ρ c (Proc.devRef .tc main_arg5) = m ((c : Thread nD τ).loc main_arg5) := by
  show StableHlo.after hostOps2 (W4 m ρ c) (Proc.devRef .tc main_arg5) = _
  after_results
  exact W4_arg5 m ρ c
theorem W5_arg6 : W5 m ρ c (Proc.devRef .tc main_arg6) = m ((c : Thread nD τ).loc main_arg6) := by
  show StableHlo.after hostOps2 (W4 m ρ c) (Proc.devRef .tc main_arg6) = _
  after_results
  exact W4_arg6 m ρ c
/-- The first layer passes the third stretch untouched: region 2's first operand. -/
theorem W5_v27 : W5 m ρ c (Proc.devRef .tc main_v27)
    = layer (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v27) = _
  after_results
  exact W4_v27 m ρ c
/-- The in-degree factors again, computed here and used after region 2. -/
theorem W5_v40 : W5 m ρ c (Proc.devRef .tc main_v40) = invSqrtDeg (m ((c : Thread nD τ).loc main_arg2)) := by
  show StableHlo.after hostOps2 (W4 m ρ c) (Proc.devRef .tc main_v40) = _
  after_results
  rw [W4_arg2]
  rfl
/-- The out-degree factors again, as a column: region 2's second operand. -/
theorem W5_v41 : W5 m ρ c (Proc.devRef .tc main_v41) = column (invSqrtDeg (m ((c : Thread nD τ).loc main_arg1))) := by
  show StableHlo.after hostOps2 (W4 m ρ c) (Proc.devRef .tc main_v41) = _
  after_results
  rw [W4_arg1]
  rfl

/-! ## At region 2's exit -/

/-- Region 2's output: the first layer scaled by the out-degree factors. -/
theorem W6_v42 : W6 m ρ c (Proc.devRef .tc main_v42)
    = GraphLayer.scaleRows (layer (m ((c : Thread nD τ).loc main_arg0)) (m ((c : Thread nD τ).loc main_arg1)) (m ((c : Thread nD τ).loc main_arg2)) (m ((c : Thread nD τ).loc main_arg3)) (m ((c : Thread nD τ).loc main_arg4))) (perRow (invSqrtDeg (m ((c : Thread nD τ).loc main_arg1)))) := by
  refine (W6_arr m ρ c 2).trans ((Region2.out_eq (V5 m ρ) c).trans ?_)
  show Region2.G (W5 m ρ c (Proc.devRef .tc main_v27)) (W5 m ρ c (Proc.devRef .tc main_v41)) = _
  rw [W5_v27, W5_v41]
  exact scale2_column _ _
theorem W6_arg1 : W6 m ρ c (Proc.devRef .tc main_arg1) = m ((c : Thread nD τ).loc main_arg1) :=
  (W6_of_ne m ρ c main_arg1 (by decide)).trans (W5_arg1 m ρ c)
theorem W6_arg2 : W6 m ρ c (Proc.devRef .tc main_arg2) = m ((c : Thread nD τ).loc main_arg2) :=
  (W6_of_ne m ρ c main_arg2 (by decide)).trans (W5_arg2 m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)
theorem W6_v40 : W6 m ρ c (Proc.devRef .tc main_v40) = invSqrtDeg (m ((c : Thread nD τ).loc main_arg2)) :=
  (W6_of_ne m ρ c main_v40 (by decide)).trans (W5_v40 m ρ c)

/-! ## At region 3's entry: after the last stretch of host operations -/

theorem W7_arg5 : W7 m ρ c (Proc.devRef .tc main_arg5) = m ((c : Thread nD τ).loc main_arg5) := by
  show StableHlo.after hostOps3 (W6 m ρ c) (Proc.devRef .tc main_arg5) = _
  after_results
  exact W6_arg5 m ρ c
set_option maxHeartbeats 2000000 in
/-- The second layer's aggregated messages: region 3's first operand. -/
theorem W7_v52 : W7 m ρ c (Proc.devRef .tc main_v52)
    = aggregate (GraphLayer.scaleRows (layer (m ((c : Thread nD τ).loc main_arg0)) (m ((c : Thread nD τ).loc main_arg1)) (m ((c : Thread nD τ).loc main_arg2)) (m ((c : Thread nD τ).loc main_arg3)) (m ((c : Thread nD τ).loc main_arg4))) (perRow (invSqrtDeg (m ((c : Thread nD τ).loc main_arg1)))))
        (m ((c : Thread nD τ).loc main_arg1)) (m ((c : Thread nD τ).loc main_arg2)) := by
  show StableHlo.after hostOps3 (W6 m ρ c) (Proc.devRef .tc main_v52) = _
  after_results
  rw [W6_v42, W6_arg1, W6_arg2]
  rfl
/-- The in-degree factors as a column: region 3's second operand. -/
theorem W7_v53 : W7 m ρ c (Proc.devRef .tc main_v53) = column (invSqrtDeg (m ((c : Thread nD τ).loc main_arg2))) := by
  show StableHlo.after hostOps3 (W6 m ρ c) (Proc.devRef .tc main_v53) = _
  after_results
  rw [W6_v40]
  rfl
/-- The second bias as a row: region 3's fourth operand. -/
theorem W7_v54 : W7 m ρ c (Proc.devRef .tc main_v54) = biasRow (m ((c : Thread nD τ).loc main_arg6)) := by
  show StableHlo.after hostOps3 (W6 m ρ c) (Proc.devRef .tc main_v54) = _
  after_results
  rw [W6_arg6]
  rfl

/-! ## At the end -/

/-- THE RESULT: region 3's output is the two layers of the features. -/
theorem W8_v55 : W8 m ρ c (Proc.devRef .tc main_v55)
    = twoLayers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ((Region3.out_eq (V7 m ρ) c).trans ?_)
  show Region3.G (W7 m ρ c (Proc.devRef .tc main_v52)) (W7 m ρ c (Proc.devRef .tc main_v53))
    (W7 m ρ c (Proc.devRef .tc main_arg5)) (W7 m ρ c (Proc.devRef .tc main_v54)) = _
  rw [W7_v52, W7_v53, W7_arg5, W7_v54]
  exact dense3_column_row _ _ _ _

end Cert.KernelIdeal.Graph

end
-- ==== Proof.Reference.lean ====
/-
  The idealized reference program's result as two graph-convolution layers.

  The reference is a straight line of host operations: per layer it computes the inverse square roots of the clamped out- and
  in-degrees, scales the feature rows by the out-degree factors (a vector broadcast to a column and then over the lanes),
  gathers along the source indices, sums per destination index, scales by the in-degree factors, multiplies by the weight
  with a general dot product, adds the bias broadcast to a row and then over the rows, and clips at zero.  Its composed
  result term is therefore the host's spelling of a layer applied twice, and the host's spelling of a layer is the layer.
-/
import proofs.«147056_j4793183502743_1_alg».proof.Proof.Gen.ReferenceIdeal.Run
import proofs.«147056_j4793183502743_1_alg».proof.Proof.LibGraphLayer
import Idealize.ShloMosaic.PureOps.Ideal

set_option maxRecDepth 16384

noncomputable section

namespace Cert.ReferenceIdeal.Graph

open Cert.ReferenceIdeal Cert.ReferenceIdeal.Gen
open Idealize.ShloMosaic Idealize.ShloMosaic.TcCoe Idealize.ShloMosaic.ValueIdx Idealize.SL.Sem

/-- The inverse square root of each node's clamped degree: the number of edges whose index entry names the node, at least one. -/
def invSqrtDeg (idx : (⟨S600000, .i32⟩ : BufTy).Contents (Elt Ideal)) : FVec Ideal S50000 .f32 :=
  Host.rsqrt (F := Ideal) (maximumf
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 idx)
      (broadcastInDim S600000 ![] bcast_S_S600000 (constant (F := Ideal) S_ .f32 0x3F800000#32)))
    (broadcastInDim S50000 ![] bcast_S_S50000 (constant (F := Ideal) S_ .f32 0x3F800000#32)))

/-- The messages: rows of hs gathered along the (normalised) source indices and summed per destination index. -/
def aggregate (hs : FVec Ideal S50000x128 .f32) (src dst : (⟨S600000, .i32⟩ : BufTy).Contents (Elt Ideal)) :
    FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 hs
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A vector of factors as a function of the row. -/
def perRow (v : FVec Ideal S50000 .f32) : Fin 50000 → EReal := fun p => v (ix1 p)

/-- A bias vector as a function of the lane. -/
def perLane (b : FVec Ideal S128 .f32) : Fin 128 → EReal := fun q => b (ix1 q)

/-- One layer: scale by the out-degree factor, aggregate over the edges, scale by the in-degree factor, multiply by the weight,
    add the bias, clip at zero. -/
def layer (h : FVec Ideal S50000x128 .f32) (src dst : (⟨S600000, .i32⟩ : BufTy).Contents (Elt Ideal))
    (W : FVec Ideal S128x128 .f32) (b : FVec Ideal S128 .f32) : FVec Ideal S50000x128 .f32 :=
  GraphLayer.reluDense (aggregate (GraphLayer.scaleRows h (perRow (invSqrtDeg src))) src dst) (perRow (invSqrtDeg dst)) W (perLane b)

/-- The two layers. -/
def twoLayers (x : FVec Ideal S50000x128 .f32) (src dst : (⟨S600000, .i32⟩ : BufTy).Contents (Elt Ideal))
    (W1 : FVec Ideal S128x128 .f32) (b1 : FVec Ideal S128 .f32) (W2 : FVec Ideal S128x128 .f32) (b2 : FVec Ideal S128 .f32) :
    FVec Ideal S50000x128 .f32 :=
  layer (layer x src dst W1 b1) src dst W2 b2

/-- A layer as the host operations spell it. -/
def hostLayer (h : FVec Ideal S50000x128 .f32) (src dst : (⟨S600000, .i32⟩ : BufTy).Contents (Elt Ideal))
    (W : FVec Ideal S128x128 .f32) (b : FVec Ideal S128 .f32) : FVec Ideal S50000x128 .f32 :=
  maximumf (addf (Host.dotGeneral (F := Ideal) dot_S50000x128_S128x128_S50000x128_1_0_0_1_n_n none
        (mulf (aggregate (mulf h (broadcastInDim S50000x128 ![0, 1] bcast_S50000x1_S50000x128_0_1
              (broadcastInDim S50000x1 ![0] bcast_S50000_S50000x1_0 (invSqrtDeg src)))) src dst)
          (broadcastInDim S50000x128 ![0, 1] bcast_S50000x1_S50000x128_0_1
            (broadcastInDim S50000x1 ![0] bcast_S50000_S50000x1_0 (invSqrtDeg dst)))) W)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The host's dot product contracts the left operand's lanes against the right operand's rows. -/
theorem plain : PlainDot.IsPlain dot_S50000x128_S128x128_S50000x128_1_0_0_1_n_n := ⟨rfl, rfl, rfl, rfl, rfl, rfl⟩

/-- The host's spelling of a layer is the layer. -/
theorem hostLayer_eq (h : FVec Ideal S50000x128 .f32) (src dst : (⟨S600000, .i32⟩ : BufTy).Contents (Elt Ideal))
    (W : FVec Ideal S128x128 .f32) (b : FVec Ideal S128 .f32) : hostLayer h src dst W b = layer h src dst W b := by
  have e : mulf h (broadcastInDim S50000x128 ![0, 1] bcast_S50000x1_S50000x128_0_1
        (broadcastInDim S50000x1 ![0] bcast_S50000_S50000x1_0 (invSqrtDeg src)))
      = GraphLayer.scaleRows h (perRow (invSqrtDeg src)) :=
    GraphLayer.host_scale h (invSqrtDeg src) bcast_S50000_S50000x1_0 bcast_S50000x1_S50000x128_0_1
  unfold hostLayer
  rw [e]
  exact GraphLayer.host_layer plain (aggregate (GraphLayer.scaleRows h (perRow (invSqrtDeg src))) src dst) (invSqrtDeg dst) W b
    bcast_S50000_S50000x1_0 bcast_S50000x1_S50000x128_0_1 bcast_S128_S1x128_1 bcast_S1x128_S50000x128_0_1 bcast_S_S50000x128

variable (m : (ℓ : Loc nD τ sig) → Buf (Elt Ideal) ℓ) (c : Dev nD)

set_option maxRecDepth 65536 in
/-- The run's composed result term is the host's spelling of a layer, applied twice. -/
theorem res_host : Cert.ReferenceIdeal.Value.res_main_v67 m c
    = hostLayer (hostLayer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6)) := rfl

/-- THE RESULT: the reference's result is the two layers of the features. -/
theorem res_eq : Cert.ReferenceIdeal.Value.res_main_v67 m c
    = twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [res_host, hostLayer_eq, hostLayer_eq]
  rfl

end Cert.ReferenceIdeal.Graph

end
-- ==== Proof.lean ====
/-
  The certificate: a two-layer graph convolution computed by four kernel regions among host operations equals its reference.

  Each layer scales every node's features by the inverse square root of its clamped out-degree, gathers the scaled rows along the
  edges' source indices and sums them per destination index, scales the sums by the inverse square root of the clamped
  in-degree, multiplies by the layer's weight, adds its bias and clips at zero.  The kernel program computes the two scalings
  and the weight-bias-clip stage in kernels that work on blocks of 5000 rows (the matrix product on operands rounded to
  bf16) and leaves the degree counts, the gather and the per-destination sum to the host; the reference does everything on the
  host.  At the ideal instance a rounding is the identity and a matrix product is the exact sum, every stage of the kernel
  program is the same function of the arrays as the reference's stage, and the shared host operations are literally the
  same: both programs end with the result buffer at the two layers of the argument arrays.  No rearrangement of a sum or
  a product is used, so the precondition is not needed for the values.

  The word-level kernel program and its idealization both terminate without a fault with their arguments unchanged (the launch
  over the segments); the reference does by its run; the idealization rewrote no operation.
-/
import proofs.«147056_j4793183502743_1_alg».proof.Defs
import proofs.«147056_j4793183502743_1_alg».proof.Proof.Gen.Kernel
import proofs.«147056_j4793183502743_1_alg».proof.Proof.Gen.Kernel.Skeleton
import proofs.«147056_j4793183502743_1_alg».proof.Proof.Gen.Kernel.Launch
import proofs.«147056_j4793183502743_1_alg».proof.Proof.Gen.Kernel.Points
import proofs.«147056_j4793183502743_1_alg».proof.Proof.Gen.Kernel.Frame
import proofs.«147056_j4793183502743_1_alg».proof.Proof.Gen.KernelIdeal
import proofs.«147056_j4793183502743_1_alg».proof.Proof.Gen.KernelIdeal.Skeleton
import proofs.«147056_j4793183502743_1_alg».proof.Proof.Gen.KernelIdeal.Launch
import proofs.«147056_j4793183502743_1_alg».proof.Proof.Gen.KernelIdeal.Points
import proofs.«147056_j4793183502743_1_alg».proof.Proof.Gen.KernelIdeal.Frame
import proofs.«147056_j4793183502743_1_alg».proof.Proof.Gen.ReferenceIdeal
import proofs.«147056_j4793183502743_1_alg».proof.Proof.Gen.Pre_finite_inputs
import proofs.«147056_j4793183502743_1_alg».proof.Proof.Gen.ReferenceIdeal.Run
import proofs.«147056_j4793183502743_1_alg».proof.Proof.KernelRun
import proofs.«147056_j4793183502743_1_alg».proof.Proof.Stages
import proofs.«147056_j4793183502743_1_alg».proof.Proof.Reference
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two layers spelt over the reference's shapes and dimension records are the two layers spelt over the kernel
    program's: the shapes and the records are the same literals. -/
theorem twoLayers_same (x : FVec Ideal Cert.KernelIdeal.S50000x128 .f32)
    (src dst : (⟨Cert.KernelIdeal.S600000, .i32⟩ : BufTy).Contents (Elt Ideal))
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32) :
    Cert.ReferenceIdeal.Graph.twoLayers x src dst W1 b1 W2 b2 = Cert.KernelIdeal.Graph.twoLayers x src dst W1 b1 W2 b2 := rfl

/-- From memories that agree on the arguments both idealized programs end with the result buffer at the two layers of the
    arguments: the kernel program by its boundaries walked in order, the reference by its composed term. -/
theorem algebraic : Cert.algebraic_KernelIdeal_ReferenceIdeal := by
  intro m ρ m' ρ' _ hagree
  refine ⟨fun c => Cert.KernelIdeal.Graph.twoLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Graph.W8_v55 m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Graph.res_eq, (hagree c).1, (hagree c).2.1, (hagree c).2.2.1, (hagree c).2.2.2.1,
      (hagree c).2.2.2.2.1, (hagree c).2.2.2.2.2.1, (hagree c).2.2.2.2.2.2]
    exact twoLayers_same _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
